-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x32 .f32) (main_arg10 : FVec F S32 .f32) (main_arg11 : FVec F S32x64 .f32) (main_arg12 : FVec F S64 .f32) (main_arg13 : FVec F S64x2 .f32) (main_arg14 : FVec F S2 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S32 .f32) (main_arg7 : FVec F S64x64 .f32) (main_arg8 : FVec F S64 .f32) (main_arg9 : FVec F S64x32 .f32) (main_arg10 : FVec F S32 .f32) (main_arg11 : FVec F S32x64 .f32) (main_arg12 : FVec F S64 .f32) (main_arg13 : FVec F S64x2 .f32) (main_arg14 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x32 .f32) (main_arg1 : IVec S2x1600000 32) (main_arg2 : IVec S50000 32) (main_arg3 : FVec F S64x64 .f32) (main_arg4 : FVec F S64 .f32) (main_arg5 : FVec F S64x32 .f32) (main_arg6 : FVec F S32 .f32) (main_arg7 : FVec F S64x64 .f32) (main_arg8 : FVec F S64 .f32) (main_arg9 : FVec F S64x32 .f32) (main_arg10 : FVec F S32 .f32) (main_arg11 : FVec F S32x64 .f32) (main_arg12 : FVec F S64 .f32) (main_arg13 : FVec F S64x2 .f32) (main_arg14 : FVec F S2 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_arg11 main_arg12 main_arg13 main_arg14 main_v13 main_v16
-- ==== Kernel.lean ====
abbrev S50000x32 : Shape := ⟨2, ![50000, 32]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S20000x64 : Shape := ⟨2, ![20000, 64]⟩
abbrev S20000x32 : Shape := ⟨2, ![20000, 32]⟩
abbrev S1x64 : Shape := ⟨2, ![1, 64]⟩
abbrev S1x32 : Shape := ⟨2, ![1, 32]⟩
abbrev S50000x64 : Shape := ⟨2, ![50000, 64]⟩
abbrev S5000x64 : Shape := ⟨2, ![5000, 64]⟩
abbrev S5000x32 : Shape := ⟨2, ![5000, 32]⟩
abbrev S100x32 : Shape := ⟨2, ![100, 32]⟩
abbrev S50000x1 : Shape := ⟨2, ![50000, 1]⟩
abbrev S100 : Shape := ⟨1, ![100]⟩
abbrev S100x1 : Shape := ⟨2, ![100, 1]⟩
abbrev S100x2 : Shape := ⟨2, ![100, 2]⟩
abbrev S100x64 : Shape := ⟨2, ![100, 64]⟩
abbrev S1x2 : Shape := ⟨2, ![1, 2]⟩

abbrev nBuf : Space → Nat
  | .hbm => 62
  | .vmem => 22
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1600000x64, .f32⟩
  | .hbm, ⟨38, _⟩ => ⟨S1600000x32, .f32⟩
  | .hbm, ⟨39, _⟩ => ⟨S_, .f32⟩
  | .hbm, ⟨40, _⟩ => ⟨S50000x32, .f32⟩
  | .hbm, ⟨41, _⟩ => ⟨S1600000x1, .i32⟩
  | .hbm, ⟨42, _⟩ => ⟨S50000x32, .f32⟩
  | .hbm, ⟨43, _⟩ => ⟨S50000x64, .f32⟩
  | .hbm, ⟨44, _⟩ => ⟨S50000x32, .f32⟩
  | .hbm, ⟨45, _⟩ => ⟨S_, .f32⟩
  | .hbm, ⟨46, _⟩ => ⟨S100x32, .f32⟩
  | .hbm, ⟨47, _⟩ => ⟨S50000x1, .i32⟩
  | .hbm, ⟨48, _⟩ => ⟨S100x32, .f32⟩
  | .hbm, ⟨49, _⟩ => ⟨S_, .f32⟩
  | .hbm, ⟨50, _⟩ => ⟨S50000, .f32⟩
  | .hbm, ⟨51, _⟩ => ⟨S_, .f32⟩
  | .hbm, ⟨52, _⟩ => ⟨S100, .f32⟩
  | .hbm, ⟨53, _⟩ => ⟨S50000x1, .i32⟩
  | .hbm, ⟨54, _⟩ => ⟨S100, .f32⟩
  | .hbm, ⟨55, _⟩ => ⟨S_, .f32⟩
  | .hbm, ⟨56, _⟩ => ⟨S100, .f32⟩
  | .hbm, ⟨57, _⟩ => ⟨S100, .f32⟩
  | .hbm, ⟨58, _⟩ => ⟨S100x1, .f32⟩
  | .hbm, ⟨59, _⟩ => ⟨S100x32, .f32⟩
  | .hbm, ⟨60, _⟩ => ⟨S100x32, .f32⟩
  | .hbm, ⟨61, _⟩ => ⟨S100x2, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S20000x32, .f32⟩
  | .local _ .vmem, ⟨7, _⟩ => ⟨S20000x32, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S64x32, .f32⟩
  | .local _ .vmem, ⟨13, _⟩ => ⟨S32, .f32⟩
  | .local _ .vmem, ⟨14, _⟩ => ⟨S5000x32, .f32⟩
  | .local _ .vmem, ⟨15, _⟩ => ⟨S5000x32, .f32⟩
  | .local _ .vmem, ⟨16, _⟩ => ⟨S100x32, .f32⟩
  | .local _ .vmem, ⟨17, _⟩ => ⟨S32x64, .f32⟩
  | .local _ .vmem, ⟨18, _⟩ => ⟨S64, .f32⟩
  | .local _ .vmem, ⟨19, _⟩ => ⟨S64x2, .f32⟩
  | .local _ .vmem, ⟨20, _⟩ => ⟨S2, .f32⟩
  | .local _ .vmem, ⟨21, _⟩ => ⟨S100x2, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S100x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S100x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  bcast_S_S50000x32 : S_.BroadcastsInDim S50000x32 (![] : Fin 0 → Fin S50000x32.rank)
  concatenates_S50000x32_S50000x32_S50000x64_d1 : Shape.Concatenates [S50000x32, S50000x32] S50000x64 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100x32 : S_.BroadcastsInDim S100x32 (![] : Fin 0 → Fin S100x32.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S100 : S_.BroadcastsInDim S100 (![] : Fin 0 → Fin S100.rank)
  bcast_S100_S100x1_0 : S100.BroadcastsInDim S100x1 (![0] : Fin 1 → Fin S100x1.rank)
  bcast_S100x1_S100x32_0_1 : S100x1.BroadcastsInDim S100x32 (![0, 1] : Fin 2 → Fin S100x32.rank)
  inb_S100x32_S100x32_0_0 : ∀ a, (![0, 0] : Fin 2 → Nat) a + S100x32.size a ≤ S100x32.size a
  h_S100x32 : 0 < S100x32.numel
  shapeCasts_S100x32_S100x32 : S100x32.ShapeCasts S100x32
  inb_S32x64_S32x64_0_0 : ∀ a, (![0, 0] : Fin 2 → Nat) a + S32x64.size a ≤ S32x64.size a
  h_S32x64 : 0 < S32x64.numel
  broadcasts_S1x64_S100x64 : S1x64.Broadcasts S100x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S100x2 : S1x2.Broadcasts S100x2
  inb_S100x2_S100x2_0_0 : ∀ a, (![0, 0] : Fin 2 → Nat) a + S100x2.size a ≤ S100x2.size a
  h_S100x2 : 0 < S100x2.numel
  gather_S50000x32_S1600000x1_S1600000x32_1_0_n_n_0_1_132_wf : GatherDims.WF S50000x32 S1600000x1 S1600000x32 [1] [0] [] [0] [] 1 ![1, 32]
  dot_S20000x64_S64x64_S20000x64_1_0_0_1_n_n_wf : DotDims.WF S20000x64 S64x64 S20000x64 [1] [0] [0] [1] [] []
  dot_S20000x64_S64x32_S20000x32_1_0_0_1_n_n_wf : DotDims.WF S20000x64 S64x32 S20000x32 [1] [0] [0] [1] [] []
  scatter_S50000x32_S1600000x1_S1600000x32_1_0_0_1_wf : ScatterDims.WF S50000x32 S1600000x1 S1600000x32 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  scatter_S100x32_S50000x1_S50000x32_1_0_0_1_wf : ScatterDims.WF S100x32 S50000x1 S50000x32 [1] [0] [0] 1
  scatter_S100_S50000x1_S50000_n_0_0_1_wf : ScatterDims.WF S100 S50000x1 S50000 [] [0] [0] 1
  dot_S100x32_S32x64_S100x64_1_0_0_1_n_n_wf : DotDims.WF S100x32 S32x64 S100x64 [1] [0] [0] [1] [] []
  dot_S100x64_S64x2_S100x2_1_0_0_1_n_n_wf : DotDims.WF S100x64 S64x2 S100x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1600000x64.size a
  hwx0_0 : ∀ i : grid0.Coords, EltTy.bits .f32 = 32 ∨ (Rect.block (s := S1600000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x32.size a ≤ S1600000x32.size a
  hwx0_5 : ∀ i : grid0.Coords, EltTy.bits .f32 = 32 ∨ (Rect.block (s := S1600000x32) S20000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S100x32.size a ≤ S100x32.size a
  hwx2_0 : ∀ i : grid2.Coords, EltTy.bits .f32 = 32 ∨ (Rect.block (s := S100x32) S100x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S100x2.size a ≤ S100x2.size a
  hwx2_5 : ∀ i : grid2.Coords, EltTy.bits .f32 = 32 ∨ (Rect.block (s := S100x2) S100x2.size (cc2_transform_5 i) (hinb2_5 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S100x32_S50000x1_S50000x32_1_0_0_1 : ScatterDims S100x32 S50000x1 S50000x32 where
  updateWindowDims := [1]
  insertedWindowDims := [0]
  scatterDimsToOperandDims := [0]
  indexVectorDim := 1
  wf := scatter_S100x32_S50000x1_S50000x32_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x32_S32x64_S100x64_1_0_0_1_n_n : DotDims S100x32 S32x64 S100x64 where
  lhsContracting := [1]
  rhsContracting := [0]
  lhsNonContracting := [0]
  rhsNonContracting := [1]
  lhsBatch := []
  rhsBatch := []
  wf := dot_S100x32_S32x64_S100x64_1_0_0_1_n_n_wf
def dot_S100x64_S64x2_S100x2_1_0_0_1_n_n : DotDims S100x64 S64x2 S100x2 where
  lhsContracting := [1]
  rhsContracting := [0]
  lhsNonContracting := [0]
  rhsNonContracting := [1]
  lhsBatch := []
  rhsBatch := []
  wf := dot_S100x64_S64x2_S100x2_1_0_0_1_n_n_wf

abbrev win0_0 : Pipeline.Window sig grid0 :=
  Pipeline.Window.ofSpec (Memref.whole main_v18) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S20000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S100x32.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S100x2.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S1x64 : Shape := ⟨2, ![1, 64]⟩
abbrev S1x32 : Shape := ⟨2, ![1, 32]⟩
abbrev S50000x64 : Shape := ⟨2, ![50000, 64]⟩
abbrev S100x32 : Shape := ⟨2, ![100, 32]⟩
abbrev S50000x1 : Shape := ⟨2, ![50000, 1]⟩
abbrev S100 : Shape := ⟨1, ![100]⟩
abbrev S100x1 : Shape := ⟨2, ![100, 1]⟩
abbrev S100x64 : Shape := ⟨2, ![100, 64]⟩
abbrev S100x2 : Shape := ⟨2, ![100, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1600000x64, .f32⟩
  | .hbm, ⟨38, _⟩ => ⟨S1600000x64, .f32⟩
  | .hbm, ⟨39, _⟩ => ⟨S1x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S1600000x32, .f32⟩
  | .hbm, ⟨46, _⟩ => ⟨S1x32, .f32⟩
  | .hbm, ⟨47, _⟩ => ⟨S1600000x32, .f32⟩
  | .hbm, ⟨48, _⟩ => ⟨S1600000x32, .f32⟩
  | .hbm, ⟨49, _⟩ => ⟨S_, .f32⟩
  | .hbm, ⟨50, _⟩ => ⟨S50000x32, .f32⟩
  | .hbm, ⟨51, _⟩ => ⟨S1600000x1, .i32⟩
  | .hbm, ⟨52, _⟩ => ⟨S50000x32, .f32⟩
  | .hbm, ⟨53, _⟩ => ⟨S50000x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S50000x32, .f32⟩
  | .hbm, ⟨62, _⟩ => ⟨S1x32, .f32⟩
  | .hbm, ⟨63, _⟩ => ⟨S50000x32, .f32⟩
  | .hbm, ⟨64, _⟩ => ⟨S50000x32, .f32⟩
  | .hbm, ⟨65, _⟩ => ⟨S_, .f32⟩
  | .hbm, ⟨66, _⟩ => ⟨S100x32, .f32⟩
  | .hbm, ⟨67, _⟩ => ⟨S50000x1, .i32⟩
  | .hbm, ⟨68, _⟩ => ⟨S100x32, .f32⟩
  | .hbm, ⟨69, _⟩ => ⟨S_, .f32⟩
  | .hbm, ⟨70, _⟩ => ⟨S50000, .f32⟩
  | .hbm, ⟨71, _⟩ => ⟨S_, .f32⟩
  | .hbm, ⟨72, _⟩ => ⟨S100, .f32⟩
  | .hbm, ⟨73, _⟩ => ⟨S50000x1, .i32⟩
  | .hbm, ⟨74, _⟩ => ⟨S100, .f32⟩
  | .hbm, ⟨75, _⟩ => ⟨S_, .f32⟩
  | .hbm, ⟨76, _⟩ => ⟨S100, .f32⟩
  | .hbm, ⟨77, _⟩ => ⟨S100, .f32⟩
  | .hbm, ⟨78, _⟩ => ⟨S100x1, .f32⟩
  | .hbm, ⟨79, _⟩ => ⟨S100x32, .f32⟩
  | .hbm, ⟨80, _⟩ => ⟨S100x32, .f32⟩
  | .hbm, ⟨81, _⟩ => ⟨S100x64, .f32⟩
  | .hbm, ⟨82, _⟩ => ⟨S1x64, .f32⟩
  | .hbm, ⟨83, _⟩ => ⟨S100x64, .f32⟩
  | .hbm, ⟨84, _⟩ => ⟨S100x64, .f32⟩
  | .hbm, ⟨85, _⟩ => ⟨S_, .f32⟩
  | .hbm, ⟨86, _⟩ => ⟨S100x64, .f32⟩
  | .hbm, ⟨87, _⟩ => ⟨S100x64, .f32⟩
  | .hbm, ⟨88, _⟩ => ⟨S100x2, .f32⟩
  | .hbm, ⟨89, _⟩ => ⟨S1x2, .f32⟩
  | .hbm, ⟨90, _⟩ => ⟨S100x2, .f32⟩
  | .hbm, ⟨91, _⟩ => ⟨S100x2, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_cst : Ref sig .tc := ⟨.hbm, 85, rfl⟩
abbrev main_call2_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S50000x32 : S_.BroadcastsInDim S50000x32 (![] : Fin 0 → Fin S50000x32.rank)
  concatenates_S50000x32_S50000x32_S50000x64_d1 : Shape.Concatenates [S50000x32, S50000x32] S50000x64 1
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x32_S50000x32_0_1 : S1x32.BroadcastsInDim S50000x32 (![0, 1] : Fin 2 → Fin S50000x32.rank)
  bcast_S_S100x32 : S_.BroadcastsInDim S100x32 (![] : Fin 0 → Fin S100x32.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S100 : S_.BroadcastsInDim S100 (![] : Fin 0 → Fin S100.rank)
  bcast_S100_S100x1_0 : S100.BroadcastsInDim S100x1 (![0] : Fin 1 → Fin S100x1.rank)
  bcast_S100x1_S100x32_0_1 : S100x1.BroadcastsInDim S100x32 (![0, 1] : Fin 2 → Fin S100x32.rank)
  bcast_S1x64_S100x64_0_1 : S1x64.BroadcastsInDim S100x64 (![0, 1] : Fin 2 → Fin S100x64.rank)
  bcast_S_S100x64 : S_.BroadcastsInDim S100x64 (![] : Fin 0 → Fin S100x64.rank)
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  gather_S50000x32_S1600000x1_S1600000x32_1_0_n_n_0_1_132_wf : GatherDims.WF S50000x32 S1600000x1 S1600000x32 [1] [0] [] [0] [] 1 ![1, 32]
  dot_S1600000x64_S64x64_S1600000x64_1_0_0_1_n_n_wf : DotDims.WF S1600000x64 S64x64 S1600000x64 [1] [0] [0] [1] [] []
  dot_S1600000x64_S64x32_S1600000x32_1_0_0_1_n_n_wf : DotDims.WF S1600000x64 S64x32 S1600000x32 [1] [0] [0] [1] [] []
  scatter_S50000x32_S1600000x1_S1600000x32_1_0_0_1_wf : ScatterDims.WF S50000x32 S1600000x1 S1600000x32 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  scatter_S100x32_S50000x1_S50000x32_1_0_0_1_wf : ScatterDims.WF S100x32 S50000x1 S50000x32 [1] [0] [0] 1
  scatter_S100_S50000x1_S50000_n_0_0_1_wf : ScatterDims.WF S100 S50000x1 S50000 [] [0] [0] 1
  dot_S100x32_S32x64_S100x64_1_0_0_1_n_n_wf : DotDims.WF S100x32 S32x64 S100x64 [1] [0] [0] [1] [] []
  dot_S100x64_S64x2_S100x2_1_0_0_1_n_n_wf : DotDims.WF S100x64 S64x2 S100x2 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S100x32_S50000x1_S50000x32_1_0_0_1 : ScatterDims S100x32 S50000x1 S50000x32 where
  updateWindowDims := [1]
  insertedWindowDims := [0]
  scatterDimsToOperandDims := [0]
  indexVectorDim := 1
  wf := scatter_S100x32_S50000x1_S50000x32_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x32_S32x64_S100x64_1_0_0_1_n_n : DotDims S100x32 S32x64 S100x64 where
  lhsContracting := [1]
  rhsContracting := [0]
  lhsNonContracting := [0]
  rhsNonContracting := [1]
  lhsBatch := []
  rhsBatch := []
  wf := dot_S100x32_S32x64_S100x64_1_0_0_1_n_n_wf
def dot_S100x64_S64x2_S100x2_1_0_0_1_n_n : DotDims S100x64 S64x2 S100x2 where
  lhsContracting := [1]
  rhsContracting := [0]
  lhsNonContracting := [0]
  rhsNonContracting := [1]
  lhsBatch := []
  rhsBatch := []
  wf := dot_S100x64_S64x2_S100x2_1_0_0_1_n_n_wf

class Facts : Prop extends Facts₀ where

variable [Facts]
-- ==== Proof.KernelRun.lean ====
/-
  The idealized kernel program's run with its RESULT named.  @main is six segments: three stretches of host operations
  and three pipelined regions.  At every segment boundary the TensorCore's buffers hold a known valuation: the fold
  `W0 … W6` (a stretch applies its operations' pure functions; a region replaces its arrays by what its write-backs
  leave).  The last thread state holds every unscoped buffer at `W6`, so each final memory has the result buffer at
  `W6 … main_v37` and every argument as launched.
-/
import proofs.«140078_j44581760532630_1_alg».proof.Proof.Gen.KernelIdeal.Frame
import Idealize.ShloMosaic.Lib.Pipeline.Value
set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the result buffer ends at the last boundary's contents `W6`, the
    arguments as launched.  The segments, their chaining and the thread states are the frame's; only the reading of the
    last thread state differs: it also reads the result buffer. -/
theorem run : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Named

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.Region0.lean ====
/-
  Region 0: what the 80 grid points' write-backs leave in the region's output array, as ONE function of the arrays the region finds.
  Point `t` stages rows `20000·t … 20000·t + 19999` of the [1600000, 64] operand and the whole of both weight matrices and both
  bias vectors; its body stores the perceptron of those rows; the block goes back to the same rows of the [1600000, 32] output.
  A row of the perceptron depends on that row of the operand only, so block `t` of the output is block `t` of the
  perceptron of the whole operand, and the 80 blocks cover every row.
-/
import proofs.«140078_j44581760532630_1_alg».proof.Proof.Gen.KernelIdeal.Frame
import proofs.«140078_j44581760532630_1_alg».proof.Proof.LibMlpRows
import Idealize.ShloMosaic.Lib.Pipeline.Value
import Idealize.ShloMosaic.Lib.ValueIdx

set_option maxRecDepth 16384

noncomputable section

namespace Cert.KernelIdeal.Region0

open Cert.KernelIdeal Cert.KernelIdeal.Gen Cert.LibMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value at an entry is the perceptron of the staged row. -/
theorem pay_apply (x0 : Vec Ideal S20000x64 .f32) (x1 : Vec Ideal S64x64 .f32) (x2 : Vec Ideal S64 .f32) (x3 : Vec Ideal S64x32 .f32)
    (x4 : Vec Ideal S32 .f32) (p : Fin 20000) (q : Fin 32) :
    k0_pay1 x0 x1 x2 x3 x4 (ix2 p q) = mlpRow (Ideal.ofBits .f32 0x00000000#32) (fun j => x0 (ix2 p j)) x1 x2 x3 x4 q := by
  unfold k0_pay1
  exact kernel_mlp_apply dot_S20000x64_S64x64_S20000x64_1_0_0_1_n_n rfl dot_S20000x64_S64x32_S20000x32_1_0_0_1_n_n rfl x0 x1 x2 x3 x4 _ _ _ _ _ _ p q

/-- The printed index maps over the grid: the row-blocked operand and the output move with the point, the weights and
    biases stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The staged operand block at `(p, k)` is the operand at row `20000·t + p`. -/
theorem blk0_apply (c : Dev nD) (t : Fin cfg0.N) (p : Fin 20000) (k : Fin 64) (r : Fin 1600000) (hr : r.val = t.val * 20000 + p.val) :
    (iblk0 V c 0 t : Vec Ideal S20000x64 .f32) (ix2 p k) = (V c main_v18 : S1600000x64.Idx → EReal) (ix2 r k) := by
  obtain ⟨e0, e1, -⟩ := idx_facts t
  show V c main_v18 (((cfg0.win 0).blk t).view.emb (ix2 p k)) = V c main_v18 (ix2 r k)
  refine congrArg (V c main_v18) (funext fun a => Fin.ext ?_)
  match a with
  | ⟨0, _⟩ => show win0_0.index t (0 : Fin 2) * 20000 + 1 * p.val = r.val; omega
  | ⟨1, _⟩ => show win0_0.index t (1 : Fin 2) * 64 + 1 * k.val = k.val; omega

/-- Each weight or bias block is its whole array. -/
theorem blk1_eq (c : Dev nD) (t : Fin cfg0.N) : (iblk0 V c 1 t : Vec Ideal S64x64 .f32) = V c main_arg3 := by
  obtain ⟨-, -, e0, e1, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega
theorem blk2_eq (c : Dev nD) (t : Fin cfg0.N) : (iblk0 V c 2 t : Vec Ideal S64 .f32) = V c main_arg4 := by
  obtain ⟨-, -, -, -, e0, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 1) * 64 + 1 * (y 0).val = (y 0).val; omega
theorem blk3_eq (c : Dev nD) (t : Fin cfg0.N) : (iblk0 V c 3 t : Vec Ideal S64x32 .f32) = V c main_arg5 := by
  obtain ⟨-, -, -, -, -, e0, e1, -⟩ := idx_facts t
  funext y
  show V c main_arg5 (((cfg0.win 3).blk t).view.emb y) = V c main_arg5 y
  refine congrArg (V c main_arg5) (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega
theorem blk4_eq (c : Dev nD) (t : Fin cfg0.N) : (iblk0 V c 4 t : Vec Ideal S32 .f32) = V c main_arg6 := by
  obtain ⟨-, -, -, -, -, -, -, e0, -⟩ := idx_facts t
  funext y
  show V c main_arg6 (((cfg0.win 4).blk t).view.emb y) = V c main_arg6 y
  refine congrArg (V c main_arg6) (funext fun a => Fin.ext ?_)
  match a with
  | ⟨0, _⟩ => show win0_4.index t (0 : Fin 1) * 32 + 1 * (y 0).val = (y 0).val; omega

/-- The perceptron of the whole operand as the region finds it: what the output array ends holding. -/
def result (c : Dev nD) : S1600000x32.Idx → EReal :=
  mlp2 (V c main_v18 : S1600000x64.Idx → EReal) (V c main_arg3) (V c main_arg4) (V c main_arg5) (V c main_arg6)

/-- An output block's entry `(p, q)` sits at row `20000·t + p` of the output. -/
theorem out_emb (t : Fin cfg0.N) (p : Fin 20000) (q : Fin 32) (r : Fin 1600000) (hr : r.val = t.val * 20000 + p.val) :
    (((cfg0.win 5).blk t).view.emb (ix2 p q) : S1600000x32.Idx) = ix2 r q := by
  obtain ⟨-, -, -, -, -, -, -, -, e0, e1⟩ := idx_facts t
  refine funext fun a => Fin.ext ?_
  match a with
  | ⟨0, _⟩ => show win0_5.index t (0 : Fin 2) * 20000 + 1 * p.val = r.val; omega
  | ⟨1, _⟩ => show win0_5.index t (1 : Fin 2) * 32 + 1 * q.val = q.val; omega

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero2]
  simp only [View.ld_unit_zero (S := S20000x64) zero2, View.ld_unit_zero (S := S64x64) zero2, View.ld_unit_zero (S := S64) zero1,
    View.ld_unit_zero (S := S64x32) zero2, View.ld_unit_zero (S := S32) zero1]
  rw [blk1_eq V c t, blk2_eq V c t, blk3_eq V c t, blk4_eq V c t]
  funext j
  obtain ⟨p, q, rfl⟩ : ∃ (p : Fin 20000) (q : Fin 32), j = ix2 p q := ⟨j 0, j 1, eq_ix2 j⟩
  have hN : cfg0.N = 80 := N_0
  have hlt : t.val * 20000 + p.val < 1600000 := by have := t.isLt; have := p.isLt; omega
  refine (pay_apply (iblk0 V c 0 t) (V c main_arg3) (V c main_arg4) (V c main_arg5) (V c main_arg6) p q).trans ?_
  show _ = result V c (((cfg0.win 5).blk t).view.emb (ix2 p q))
  rw [out_emb t p q ⟨t.val * 20000 + p.val, hlt⟩ rfl]
  unfold result
  rw [mlp2_ix2]
  refine congrArg (fun row => mlpRow (Ideal.ofBits .f32 0x00000000#32) row (V c main_arg3) (V c main_arg4) (V c main_arg5) (V c main_arg6) q) (funext fun k => ?_)
  exact blk0_apply V c t p k ⟨t.val * 20000 + p.val, hlt⟩ rfl

/-- An index of the output is in point `t`'s block iff its row is among the block's rows. -/
theorem mem_blk (t : Fin cfg0.N) (i : S1600000x32.Idx) :
    i ∈ ((cfg0.win 5).blk t).view.set ↔ ∀ a : Fin 2, win0_5.index t a * S20000x32.size a ≤ (i a).val ∧ (i a).val < win0_5.index t a * S20000x32.size a + S20000x32.size a := by
  show i ∈ ((View.whole main_v19).slice (win0_5.rect t)).set ↔ _
  rw [View.set_slice_whole, Rect.mem_set_unit]
  exact Iff.rfl

/-- The output array after the region: the perceptron of the operand, every row. -/
theorem final (c : Dev nD) : (dat0 V c).arrAt 5 cfg0.N = result V c :=
  (dat0 V c).arrAt_eq_of_cover 5 (result V c) (fun t _ => flushed_eq V c t) fun i => by
    have hN : cfg0.N = 80 := N_0
    have hi0 : (i 0).val < 1600000 := (i 0).isLt
    have hi1 : (i 1).val < 32 := (i 1).isLt
    refine ⟨⟨(i 0).val / 20000, by omega⟩, flush0_5 _, ?_⟩
    rw [mem_blk]
    obtain ⟨-, -, -, -, -, -, -, -, e0, e1⟩ := idx_facts ⟨(i 0).val / 20000, by omega⟩
    intro a
    match a with
    | ⟨0, _⟩ => show win0_5.index _ (0 : Fin 2) * 20000 ≤ (i 0).val ∧ (i 0).val < win0_5.index _ (0 : Fin 2) * 20000 + 20000; rw [e0]; show (i 0).val / 20000 * 20000 ≤ (i 0).val ∧ (i 0).val < (i 0).val / 20000 * 20000 + 20000; omega
    | ⟨1, _⟩ => show win0_5.index _ (1 : Fin 2) * 32 ≤ (i 1).val ∧ (i 1).val < win0_5.index _ (1 : Fin 2) * 32 + 32; rw [e1]; omega

end Cert.KernelIdeal.Region0

end
-- ==== Proof.Region1.lean ====
/-
  Region 1: what the 10 grid points' write-backs leave in the region's output array, as ONE function of the arrays the region finds.
  Point `t` stages rows `5000·t … 5000·t + 4999` of the [50000, 64] operand and the whole of both weight matrices and both
  bias vectors; its body stores the perceptron of those rows; the block goes back to the same rows of the [50000, 32] output.
  A row of the perceptron depends on that row of the operand only, so block `t` of the output is block `t` of the
  perceptron of the whole operand, and the 10 blocks cover every row.
-/
import proofs.«140078_j44581760532630_1_alg».proof.Proof.Gen.KernelIdeal.Frame
import proofs.«140078_j44581760532630_1_alg».proof.Proof.LibMlpRows
import Idealize.ShloMosaic.Lib.Pipeline.Value
import Idealize.ShloMosaic.Lib.ValueIdx

set_option maxRecDepth 16384

noncomputable section

namespace Cert.KernelIdeal.Region1

open Cert.KernelIdeal Cert.KernelIdeal.Gen Cert.LibMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value at an entry is the perceptron of the staged row. -/
theorem pay_apply (x0 : Vec Ideal S5000x64 .f32) (x1 : Vec Ideal S64x64 .f32) (x2 : Vec Ideal S64 .f32) (x3 : Vec Ideal S64x32 .f32)
    (x4 : Vec Ideal S32 .f32) (p : Fin 5000) (q : Fin 32) :
    k1_pay1 x0 x1 x2 x3 x4 (ix2 p q) = mlpRow (Ideal.ofBits .f32 0x00000000#32) (fun j => x0 (ix2 p j)) x1 x2 x3 x4 q := by
  unfold k1_pay1
  exact kernel_mlp_apply dot_S5000x64_S64x64_S5000x64_1_0_0_1_n_n rfl dot_S5000x64_S64x32_S5000x32_1_0_0_1_n_n rfl x0 x1 x2 x3 x4 _ _ _ _ _ _ p q

/-- The printed index maps over the grid: the row-blocked operand and the output move with the point, the weights and
    biases stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The staged operand block at `(p, k)` is the operand at row `5000·t + p`. -/
theorem blk0_apply (c : Dev nD) (t : Fin cfg1.N) (p : Fin 5000) (k : Fin 64) (r : Fin 50000) (hr : r.val = t.val * 5000 + p.val) :
    (iblk1 V c 0 t : Vec Ideal S5000x64 .f32) (ix2 p k) = (V c main_v23 : S50000x64.Idx → EReal) (ix2 r k) := by
  obtain ⟨e0, e1, -⟩ := idx_facts t
  show V c main_v23 (((cfg1.win 0).blk t).view.emb (ix2 p k)) = V c main_v23 (ix2 r k)
  refine congrArg (V c main_v23) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Each weight or bias block is its whole array. -/
theorem blk1_eq (c : Dev nD) (t : Fin cfg1.N) : (iblk1 V c 1 t : Vec Ideal S64x64 .f32) = V c main_arg7 := by
  obtain ⟨-, -, e0, e1, -⟩ := idx_facts t
  funext y
  show V c main_arg7 (((cfg1.win 1).blk t).view.emb y) = V c main_arg7 y
  refine congrArg (V c main_arg7) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega
theorem blk2_eq (c : Dev nD) (t : Fin cfg1.N) : (iblk1 V c 2 t : Vec Ideal S64 .f32) = V c main_arg8 := by
  obtain ⟨-, -, -, -, e0, -⟩ := idx_facts t
  funext y
  show V c main_arg8 (((cfg1.win 2).blk t).view.emb y) = V c main_arg8 y
  refine congrArg (V c main_arg8) (funext fun a => Fin.ext ?_)
  match a with
  | ⟨0, _⟩ => show win1_2.index t (0 : Fin 1) * 64 + 1 * (y 0).val = (y 0).val; omega
theorem blk3_eq (c : Dev nD) (t : Fin cfg1.N) : (iblk1 V c 3 t : Vec Ideal S64x32 .f32) = V c main_arg9 := by
  obtain ⟨-, -, -, -, -, e0, e1, -⟩ := idx_facts t
  funext y
  show V c main_arg9 (((cfg1.win 3).blk t).view.emb y) = V c main_arg9 y
  refine congrArg (V c main_arg9) (funext fun a => Fin.ext ?_)
  match a with
  | ⟨0, _⟩ => show win1_3.index t (0 : Fin 2) * 64 + 1 * (y 0).val = (y 0).val; omega
  | ⟨1, _⟩ => show win1_3.index t (1 : Fin 2) * 32 + 1 * (y 1).val = (y 1).val; omega
theorem blk4_eq (c : Dev nD) (t : Fin cfg1.N) : (iblk1 V c 4 t : Vec Ideal S32 .f32) = V c main_arg10 := by
  obtain ⟨-, -, -, -, -, -, -, e0, -⟩ := idx_facts t
  funext y
  show V c main_arg10 (((cfg1.win 4).blk t).view.emb y) = V c main_arg10 y
  refine congrArg (V c main_arg10) (funext fun a => Fin.ext ?_)
  match a with
  | ⟨0, _⟩ => show win1_4.index t (0 : Fin 1) * 32 + 1 * (y 0).val = (y 0).val; omega

/-- The perceptron of the whole operand as the region finds it: what the output array ends holding. -/
def result (c : Dev nD) : S50000x32.Idx → EReal :=
  mlp2 (V c main_v23 : S50000x64.Idx → EReal) (V c main_arg7) (V c main_arg8) (V c main_arg9) (V c main_arg10)

/-- An output block's entry `(p, q)` sits at row `5000·t + p` of the output. -/
theorem out_emb (t : Fin cfg1.N) (p : Fin 5000) (q : Fin 32) (r : Fin 50000) (hr : r.val = t.val * 5000 + p.val) :
    (((cfg1.win 5).blk t).view.emb (ix2 p q) : S50000x32.Idx) = ix2 r q := by
  obtain ⟨-, -, -, -, -, -, -, -, e0, e1⟩ := idx_facts t
  refine funext fun a => Fin.ext ?_
  match a with
  | ⟨0, _⟩ => show win1_5.index t (0 : Fin 2) * 5000 + 1 * p.val = r.val; omega
  | ⟨1, _⟩ => show win1_5.index t (1 : Fin 2) * 32 + 1 * q.val = q.val; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S64x64) zero2, View.ld_unit_zero (S := S64) zero1,
    View.ld_unit_zero (S := S64x32) zero2, View.ld_unit_zero (S := S32) zero1]
  rw [blk1_eq V c t, blk2_eq V c t, blk3_eq V c t, blk4_eq V c t]
  funext j
  obtain ⟨p, q, rfl⟩ : ∃ (p : Fin 5000) (q : Fin 32), j = ix2 p q := ⟨j 0, j 1, eq_ix2 j⟩
  have hN : cfg1.N = 10 := N_1
  have hlt : t.val * 5000 + p.val < 50000 := by have := t.isLt; have := p.isLt; omega
  refine (pay_apply (iblk1 V c 0 t) (V c main_arg7) (V c main_arg8) (V c main_arg9) (V c main_arg10) p q).trans ?_
  show _ = result V c (((cfg1.win 5).blk t).view.emb (ix2 p q))
  rw [out_emb t p q ⟨t.val * 5000 + p.val, hlt⟩ rfl]
  unfold result
  rw [mlp2_ix2]
  refine congrArg (fun row => mlpRow (Ideal.ofBits .f32 0x00000000#32) row (V c main_arg7) (V c main_arg8) (V c main_arg9) (V c main_arg10) q) (funext fun k => ?_)
  exact blk0_apply V c t p k ⟨t.val * 5000 + p.val, hlt⟩ rfl

/-- An index of the output is in point `t`'s block iff its row is among the block's rows. -/
theorem mem_blk (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v24).slice (win1_5.rect t)).set ↔ _
  rw [View.set_slice_whole, Rect.mem_set_unit]
  exact Iff.rfl

/-- The output array after the region: the perceptron of the operand, every row. -/
theorem final (c : Dev nD) : (dat1 V c).arrAt 5 cfg1.N = result V c :=
  (dat1 V c).arrAt_eq_of_cover 5 (result V c) (fun t _ => flushed_eq V c t) fun i => by
    have hN : cfg1.N = 10 := N_1
    have hi0 : (i 0).val < 50000 := (i 0).isLt
    have hi1 : (i 1).val < 32 := (i 1).isLt
    refine ⟨⟨(i 0).val / 5000, by omega⟩, flush1_5 _, ?_⟩
    rw [mem_blk]
    obtain ⟨-, -, -, -, -, -, -, -, e0, e1⟩ := idx_facts ⟨(i 0).val / 5000, by omega⟩
    intro a
    match a with
    | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
    | ⟨1, _⟩ => show win1_5.index _ (1 : Fin 2) * 32 ≤ (i 1).val ∧ (i 1).val < win1_5.index _ (1 : Fin 2) * 32 + 32; rw [e1]; omega

end Cert.KernelIdeal.Region1

end
-- ==== Proof.Region2.lean ====
/-
  Region 2: what the one grid point's write-back leaves in the region's output array, as ONE function of the arrays the region finds.
  Point `t` stages rows `100·t … 100·t + 99` of the [100, 32] operand and the whole of both weight matrices and both
  bias vectors; its body stores the perceptron of those rows; the block goes back to the same rows of the [100, 2] output.
  A row of the perceptron depends on that row of the operand only, so block `t` of the output is block `t` of the
  perceptron of the whole operand, and the 1 blocks cover every row.
-/
import proofs.«140078_j44581760532630_1_alg».proof.Proof.Gen.KernelIdeal.Frame
import proofs.«140078_j44581760532630_1_alg».proof.Proof.LibMlpRows
import Idealize.ShloMosaic.Lib.Pipeline.Value
import Idealize.ShloMosaic.Lib.ValueIdx

set_option maxRecDepth 16384

noncomputable section

namespace Cert.KernelIdeal.Region2

open Cert.KernelIdeal Cert.KernelIdeal.Gen Cert.LibMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value at an entry is the perceptron of the staged row. -/
theorem pay_apply (x0 : Vec Ideal S100x32 .f32) (x1 : Vec Ideal S32x64 .f32) (x2 : Vec Ideal S64 .f32) (x3 : Vec Ideal S64x2 .f32)
    (x4 : Vec Ideal S2 .f32) (p : Fin 100) (q : Fin 2) :
    k2_pay1 x0 x1 x2 x3 x4 (ix2 p q) = mlpRow (Ideal.ofBits .f32 0x00000000#32) (fun j => x0 (ix2 p j)) x1 x2 x3 x4 q := by
  unfold k2_pay1
  exact kernel_mlp_apply dot_S100x32_S32x64_S100x64_1_0_0_1_n_n rfl dot_S100x64_S64x2_S100x2_1_0_0_1_n_n rfl x0 x1 x2 x3 x4 _ _ _ _ _ _ p q

/-- The printed index maps over the grid: the row-blocked operand and the output move with the point, the weights and
    biases stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The staged operand block at `(p, k)` is the operand at row `100·t + p`. -/
theorem blk0_apply (c : Dev nD) (t : Fin cfg2.N) (p : Fin 100) (k : Fin 32) (r : Fin 100) (hr : r.val = t.val * 100 + p.val) :
    (iblk2 V c 0 t : Vec Ideal S100x32 .f32) (ix2 p k) = (V c main_v36 : S100x32.Idx → EReal) (ix2 r k) := by
  obtain ⟨e0, e1, -⟩ := idx_facts t
  show V c main_v36 (((cfg2.win 0).blk t).view.emb (ix2 p k)) = V c main_v36 (ix2 r k)
  refine congrArg (V c main_v36) (funext fun a => Fin.ext ?_)
  match a with
  | ⟨0, _⟩ => show win2_0.index t (0 : Fin 2) * 100 + 1 * p.val = r.val; omega
  | ⟨1, _⟩ => show win2_0.index t (1 : Fin 2) * 32 + 1 * k.val = k.val; omega

/-- Each weight or bias block is its whole array. -/
theorem blk1_eq (c : Dev nD) (t : Fin cfg2.N) : (iblk2 V c 1 t : Vec Ideal S32x64 .f32) = V c main_arg11 := by
  obtain ⟨-, -, e0, e1, -⟩ := idx_facts t
  funext y
  show V c main_arg11 (((cfg2.win 1).blk t).view.emb y) = V c main_arg11 y
  refine congrArg (V c main_arg11) (funext fun a => Fin.ext ?_)
  match a with
  | ⟨0, _⟩ => show win2_1.index t (0 : Fin 2) * 32 + 1 * (y 0).val = (y 0).val; omega
  | ⟨1, _⟩ => show win2_1.index t (1 : Fin 2) * 64 + 1 * (y 1).val = (y 1).val; omega
theorem blk2_eq (c : Dev nD) (t : Fin cfg2.N) : (iblk2 V c 2 t : Vec Ideal S64 .f32) = V c main_arg12 := by
  obtain ⟨-, -, -, -, e0, -⟩ := idx_facts t
  funext y
  show V c main_arg12 (((cfg2.win 2).blk t).view.emb y) = V c main_arg12 y
  refine congrArg (V c main_arg12) (funext fun a => Fin.ext ?_)
  match a with
  | ⟨0, _⟩ => show win2_2.index t (0 : Fin 1) * 64 + 1 * (y 0).val = (y 0).val; omega
theorem blk3_eq (c : Dev nD) (t : Fin cfg2.N) : (iblk2 V c 3 t : Vec Ideal S64x2 .f32) = V c main_arg13 := by
  obtain ⟨-, -, -, -, -, e0, e1, -⟩ := idx_facts t
  funext y
  show V c main_arg13 (((cfg2.win 3).blk t).view.emb y) = V c main_arg13 y
  refine congrArg (V c main_arg13) (funext fun a => Fin.ext ?_)
  match a with
  | ⟨0, _⟩ => show win2_3.index t (0 : Fin 2) * 64 + 1 * (y 0).val = (y 0).val; omega
  | ⟨1, _⟩ => show win2_3.index t (1 : Fin 2) * 2 + 1 * (y 1).val = (y 1).val; omega
theorem blk4_eq (c : Dev nD) (t : Fin cfg2.N) : (iblk2 V c 4 t : Vec Ideal S2 .f32) = V c main_arg14 := by
  obtain ⟨-, -, -, -, -, -, -, e0, -⟩ := idx_facts t
  funext y
  show V c main_arg14 (((cfg2.win 4).blk t).view.emb y) = V c main_arg14 y
  refine congrArg (V c main_arg14) (funext fun a => Fin.ext ?_)
  match a with
  | ⟨0, _⟩ => show win2_4.index t (0 : Fin 1) * 2 + 1 * (y 0).val = (y 0).val; omega

/-- The perceptron of the whole operand as the region finds it: what the output array ends holding. -/
def result (c : Dev nD) : S100x2.Idx → EReal :=
  mlp2 (V c main_v36 : S100x32.Idx → EReal) (V c main_arg11) (V c main_arg12) (V c main_arg13) (V c main_arg14)

/-- An output block's entry `(p, q)` sits at row `100·t + p` of the output. -/
theorem out_emb (t : Fin cfg2.N) (p : Fin 100) (q : Fin 2) (r : Fin 100) (hr : r.val = t.val * 100 + p.val) :
    (((cfg2.win 5).blk t).view.emb (ix2 p q) : S100x2.Idx) = ix2 r q := by
  obtain ⟨-, -, -, -, -, -, -, -, e0, e1⟩ := idx_facts t
  refine funext fun a => Fin.ext ?_
  match a with
  | ⟨0, _⟩ => show win2_5.index t (0 : Fin 2) * 100 + 1 * p.val = r.val; omega
  | ⟨1, _⟩ => show win2_5.index t (1 : Fin 2) * 2 + 1 * q.val = q.val; omega

/-- What point `t` writes back is block `t` of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero2]
  simp only [View.ld_unit_zero (S := S100x32) zero2, View.ld_unit_zero (S := S32x64) zero2, View.ld_unit_zero (S := S64) zero1,
    View.ld_unit_zero (S := S64x2) zero2, View.ld_unit_zero (S := S2) zero1]
  rw [blk1_eq V c t, blk2_eq V c t, blk3_eq V c t, blk4_eq V c t]
  funext j
  obtain ⟨p, q, rfl⟩ : ∃ (p : Fin 100) (q : Fin 2), j = ix2 p q := ⟨j 0, j 1, eq_ix2 j⟩
  have hN : cfg2.N = 1 := N_2
  have hlt : t.val * 100 + p.val < 100 := by have := t.isLt; have := p.isLt; omega
  refine (pay_apply (iblk2 V c 0 t) (V c main_arg11) (V c main_arg12) (V c main_arg13) (V c main_arg14) p q).trans ?_
  show _ = result V c (((cfg2.win 5).blk t).view.emb (ix2 p q))
  rw [out_emb t p q ⟨t.val * 100 + p.val, hlt⟩ rfl]
  unfold result
  rw [mlp2_ix2]
  refine congrArg (fun row => mlpRow (Ideal.ofBits .f32 0x00000000#32) row (V c main_arg11) (V c main_arg12) (V c main_arg13) (V c main_arg14) q) (funext fun k => ?_)
  exact blk0_apply V c t p k ⟨t.val * 100 + p.val, hlt⟩ rfl

/-- An index of the output is in point `t`'s block iff its row is among the block's rows. -/
theorem mem_blk (t : Fin cfg2.N) (i : S100x2.Idx) :
    i ∈ ((cfg2.win 5).blk t).view.set ↔ ∀ a : Fin 2, win2_5.index t a * S100x2.size a ≤ (i a).val ∧ (i a).val < win2_5.index t a * S100x2.size a + S100x2.size a := by
  show i ∈ ((View.whole main_v37).slice (win2_5.rect t)).set ↔ _
  rw [View.set_slice_whole, Rect.mem_set_unit]
  exact Iff.rfl

/-- The output array after the region: the perceptron of the operand, every row. -/
theorem final (c : Dev nD) : (dat2 V c).arrAt 5 cfg2.N = result V c :=
  (dat2 V c).arrAt_eq_of_cover 5 (result V c) (fun t _ => flushed_eq V c t) fun i => by
    have hN : cfg2.N = 1 := N_2
    have hi0 : (i 0).val < 100 := (i 0).isLt
    have hi1 : (i 1).val < 2 := (i 1).isLt
    refine ⟨⟨(i 0).val / 100, by omega⟩, flush2_5 _, ?_⟩
    rw [mem_blk]
    obtain ⟨-, -, -, -, -, -, -, -, e0, e1⟩ := idx_facts ⟨(i 0).val / 100, by omega⟩
    intro a
    match a with
    | ⟨0, _⟩ => show win2_5.index _ (0 : Fin 2) * 100 ≤ (i 0).val ∧ (i 0).val < win2_5.index _ (0 : Fin 2) * 100 + 100; rw [e0]; show (i 0).val / 100 * 100 ≤ (i 0).val ∧ (i 0).val < (i 0).val / 100 * 100 + 100; omega
    | ⟨1, _⟩ => show win2_5.index _ (1 : Fin 2) * 2 ≤ (i 1).val ∧ (i 1).val < win2_5.index _ (1 : Fin 2) * 2 + 2; rw [e1]; omega

end Cert.KernelIdeal.Region2

end
-- ==== Proof.RefValue.lean ====
/-
  The reference, stage by stage, in the shape the kernel program computes it.  The reference's result is
      mlp (pool batch (mlp (mid x dst (mlp (gathered x edges) φ)) γ)) ψ
  where `mlp` is the row-wise two-layer perceptron (`Cert.LibMlp.mlp2`), `gathered` joins the rows of `x` at each edge's
  two ends, `mid` joins `x` with the messages summed into their target nodes, and `pool` is the per-graph mean (a sum
  over each graph's nodes divided by the node count floored at one).  The three perceptrons are read entry by entry; the
  gather, the two scatter-adds, the joins and the division stay opaque: both programs apply the same ones.
-/
import proofs.«140078_j44581760532630_1_alg».proof.Proof.Gen.ReferenceIdeal.Read
import proofs.«140078_j44581760532630_1_alg».proof.Proof.LibMlpRows

noncomputable section

namespace Cert.ReferenceIdeal.RefValue

open Cert.ReferenceIdeal Cert.ReferenceIdeal.Gen Cert.ReferenceIdeal.Read Cert.LibMlp
open Idealize.ShloMosaic Idealize.ShloMosaic.TcCoe Idealize.ShloMosaic.ValueIdx

/-- The node-update operand: each node's features beside the sum of the messages sent to it (`dst`: the target node of each edge). -/
def mid (x0 : (⟨S50000x32, .f32⟩ : BufTy).Contents (Elt Ideal)) (dst : (⟨S1600000, .i32⟩ : BufTy).Contents (Elt Ideal)) (msg : (⟨S1600000x32, .f32⟩ : BufTy).Contents (Elt Ideal)) : (⟨S50000x64, .f32⟩ : BufTy).Contents (Elt Ideal) :=
  concatenate S50000x64 1 [⟨S50000x32, x0⟩, ⟨S50000x32, (Host.scatterAdd (F := Ideal) (φ := .f32) scatter_S50000x32_S1600000x1_S1600000x32_1_0_0_1 (val_main_v28 (F := Ideal)) (broadcastInDim S1600000x1 ![0] bcast_S1600000_S1600000x1_0 dst) msg : (⟨S50000x32, .f32⟩ : BufTy).Contents (Elt Ideal))⟩] concatenates_S50000x32_S50000x32_S50000x64_d1

/-- The per-graph mean of the node features `h`: their sum over each graph's nodes, divided by the graph's node count floored at one. -/
def pool (batch : (⟨S50000, .i32⟩ : BufTy).Contents (Elt Ideal)) (h : (⟨S50000x32, .f32⟩ : BufTy).Contents (Elt Ideal)) : (⟨S100x32, .f32⟩ : BufTy).Contents (Elt Ideal) :=
  Host.divf (F := Ideal) (φ := .f32) (Host.scatterAdd (F := Ideal) (φ := .f32) scatter_S100x32_S50000x1_S50000x32_1_0_0_1 (val_main_v41 (F := Ideal)) (val_main_v42 (F := Ideal) batch) h) (val_main_v51 (F := Ideal) batch)

/-- The message perceptron, over the gathered edge features. -/
theorem v27_eq (x0 : (⟨S50000x32, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) :
    val_main_v27 (F := Ideal) x0 x1 x3 x4 x5 x6 = mlp2 (val_main_v18 (F := Ideal) x0 x1) x3 x4 x5 x6 := by
  funext i
  obtain ⟨p, q, rfl⟩ : ∃ (p : Fin 1600000) (q : Fin 32), i = ix2 p q := ⟨i 0, i 1, eq_ix2 i⟩
  rw [mlp2_ix2]
  unfold val_main_v27 val_main_v26 val_main_v25 val_main_v24 val_main_v23 val_main_call0_v0 val_main_call0_cst val_main_v22 val_main_v21 val_main_v20 val_main_v19
  generalize val_main_v18 (F := Ideal) x0 x1 = X
  exact host_mlp_apply dot_S1600000x64_S64x64_S1600000x64_1_0_0_1_n_n rfl dot_S1600000x64_S64x32_S1600000x32_1_0_0_1_n_n rfl X x3 x4 x5 x6 _ _ _ _ _ p q

theorem v31_eq (x0 : (⟨S50000x32, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) :
    val_main_v31 (F := Ideal) x0 x1 x3 x4 x5 x6 = mid x0 (val_main_v3 (F := Ideal) x1) (val_main_v27 (F := Ideal) x0 x1 x3 x4 x5 x6) := rfl

/-- The node-update perceptron. -/
theorem v40_eq (x0 : (⟨S50000x32, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) :
    val_main_v40 (F := Ideal) x0 x1 x3 x4 x5 x6 x7 x8 x9 x10 = mlp2 (val_main_v31 (F := Ideal) x0 x1 x3 x4 x5 x6) x7 x8 x9 x10 := by
  funext i
  obtain ⟨p, q, rfl⟩ : ∃ (p : Fin 50000) (q : Fin 32), i = ix2 p q := ⟨i 0, i 1, eq_ix2 i⟩
  rw [mlp2_ix2]
  unfold val_main_v40 val_main_v39 val_main_v38 val_main_v37 val_main_v36 val_main_call1_v0 val_main_call1_cst val_main_v35 val_main_v34 val_main_v33 val_main_v32
  generalize val_main_v31 (F := Ideal) x0 x1 x3 x4 x5 x6 = X
  exact host_mlp_apply dot_S50000x64_S64x64_S50000x64_1_0_0_1_n_n rfl dot_S50000x64_S64x32_S50000x32_1_0_0_1_n_n rfl X x7 x8 x9 x10 _ _ _ _ _ p q

theorem v52_eq (x0 : (⟨S50000x32, .f32⟩ : BufTy).Contents (Elt Ideal)) (x1 : (⟨S2x1600000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) :
    val_main_v52 (F := Ideal) x0 x1 x2 x3 x4 x5 x6 x7 x8 x9 x10 = pool x2 (val_main_v40 (F := Ideal) x0 x1 x3 x4 x5 x6 x7 x8 x9 x10) := rfl

/-- The classifier perceptron. -/
theorem v61_eq (x0 : (⟨S50000x32, .f32⟩ : BufTy).Contents (Elt Ideal)) (x1 : (⟨S2x1600000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal)) :
    val_main_v61 (F := Ideal) x0 x1 x2 x3 x4 x5 x6 x7 x8 x9 x10 x11 x12 x13 x14 = mlp2 (val_main_v52 (F := Ideal) x0 x1 x2 x3 x4 x5 x6 x7 x8 x9 x10) x11 x12 x13 x14 := by
  funext i
  obtain ⟨p, q, rfl⟩ : ∃ (p : Fin 100) (q : Fin 2), i = ix2 p q := ⟨i 0, i 1, eq_ix2 i⟩
  rw [mlp2_ix2]
  unfold val_main_v61 val_main_v60 val_main_v59 val_main_v58 val_main_v57 val_main_call2_v0 val_main_call2_cst val_main_v56 val_main_v55 val_main_v54 val_main_v53
  generalize val_main_v52 (F := Ideal) x0 x1 x2 x3 x4 x5 x6 x7 x8 x9 x10 = X
  exact host_mlp_apply dot_S100x32_S32x64_S100x64_1_0_0_1_n_n rfl dot_S100x64_S64x2_S100x2_1_0_0_1_n_n rfl X x11 x12 x13 x14 _ _ _ _ _ p q

/-- The whole reference as three perceptrons around the opaque stages. -/
theorem ref_eq (x0 : (⟨S50000x32, .f32⟩ : BufTy).Contents (Elt Ideal)) (x1 : (⟨S2x1600000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal)) :
    val_main_v61 (F := Ideal) x0 x1 x2 x3 x4 x5 x6 x7 x8 x9 x10 x11 x12 x13 x14
      = mlp2 (pool x2 (mlp2 (mid x0 (val_main_v3 (F := Ideal) x1) (mlp2 (val_main_v18 (F := Ideal) x0 x1) x3 x4 x5 x6)) x7 x8 x9 x10)) x11 x12 x13 x14 := by
  rw [v61_eq, v52_eq, v40_eq, v31_eq, v27_eq]

end Cert.ReferenceIdeal.RefValue

end
-- ==== Proof.Chain0.lean ====
/-
  The first stretch of host operations, read back: from the launch contents it leaves the gathered edge features (the
  rows of `x` at each edge's target and source, joined) and the edges' target nodes as the reference's own stages of
  the arguments, and writes no argument.
-/
import proofs.«140078_j44581760532630_1_alg».proof.Proof.Gen.KernelIdeal.Frame
import proofs.«140078_j44581760532630_1_alg».proof.Proof.RefValue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
/-- The gathered edge features are the reference's stage of `x` and the edge list. -/
theorem s0_v18 (c : Dev nD) : W1 m ρ c (Proc.devRef .tc main_v18) = Cert.ReferenceIdeal.Read.val_main_v18 (F := Ideal) (m ((c : Thread nD τ).loc main_arg0)) (m ((c : Thread nD τ).loc main_arg1)) := by
  show StableHlo.after hostOps0 (W0 m ρ c) (Proc.devRef .tc main_v18) = _
  after_results
  show _ = Cert.ReferenceIdeal.Read.val_main_v18 (F := Ideal) (W0 m ρ c (Proc.devRef .tc main_arg0)) (W0 m ρ c (Proc.devRef .tc main_arg1))
  generalize W0 m ρ c (Proc.devRef .tc main_arg0) = x0
  generalize W0 m ρ c (Proc.devRef .tc main_arg1) = x1
  unfold Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_c_2 Cert.ReferenceIdeal.Read.val_main_v12 Cert.ReferenceIdeal.Read.val_main_v11 Cert.ReferenceIdeal.Read.val_main_c_1 Cert.ReferenceIdeal.Read.val_main_v1 Cert.ReferenceIdeal.Read.val_main_v0 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2
  rfl

set_option maxHeartbeats 2000000 in
/-- The edges' target nodes are the second row of the edge list. -/
theorem s0_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  show _ = Cert.ReferenceIdeal.Read.val_main_v3 (F := Ideal) (W0 m ρ c (Proc.devRef .tc main_arg1))
  generalize W0 m ρ c (Proc.devRef .tc main_arg1) = x1
  rfl

theorem s0_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s0_arg14 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.KernelIdeal.Chain

end
-- ==== Proof.Chain1.lean ====
/-
  The second stretch of host operations, read back: from region 0's exit contents it leaves the node-update operand —
  each node's features beside the sum of the messages sent to it — and writes no argument.
-/
import proofs.«140078_j44581760532630_1_alg».proof.Proof.Gen.KernelIdeal.Frame
import proofs.«140078_j44581760532630_1_alg».proof.Proof.RefValue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 2000000 in
theorem s1_v23 (c : Dev nD) : W3 m ρ c (Proc.devRef .tc main_v23)
    = Cert.ReferenceIdeal.RefValue.mid (W2 m ρ c (Proc.devRef .tc main_arg0)) (W2 m ρ c (Proc.devRef .tc main_v3)) (W2 m ρ c (Proc.devRef .tc main_v19)) := by
  show StableHlo.after hostOps1 (W2 m ρ c) (Proc.devRef .tc main_v23) = _
  after_results
  rfl

theorem s1_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg11 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg12 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg13 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_arg14 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.KernelIdeal.Chain

end
-- ==== Proof.Chain2.lean ====
/-
  The third stretch of host operations, read back: from region 1's exit contents it leaves the per-graph mean of the
  updated node features and writes no argument.
-/
import proofs.«140078_j44581760532630_1_alg».proof.Proof.Gen.KernelIdeal.Frame
import proofs.«140078_j44581760532630_1_alg».proof.Proof.RefValue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
theorem s2_v36 (c : Dev nD) : W5 m ρ c (Proc.devRef .tc main_v36)
    = Cert.ReferenceIdeal.RefValue.pool (W4 m ρ c (Proc.devRef .tc main_arg2)) (W4 m ρ c (Proc.devRef .tc main_v24)) := by
  show StableHlo.after hostOps2 (W4 m ρ c) (Proc.devRef .tc main_v36) = _
  after_results
  rfl

theorem s2_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s2_arg12 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s2_arg13 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s2_arg14 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.KernelIdeal.Chain

end
-- ==== Proof.Chain.lean ====
/-
  The idealized kernel program's result as a function of its arguments.  The buffers' contents at the six segment
  boundaries are read one after the other: a stretch of host operations applies its operations' functions to what the
  boundary before it holds (Chain0 … Chain2) and a region leaves in its output array the perceptron of its operand array
  (Region0 … Region2) and every other buffer as it was.  The result is
      mlp (pool batch (mlp (mid x dst (mlp (gathered x edges) φ)) γ)) ψ
  with the same gather, scatter-adds, joins and division the reference applies: the reference's own function of the arguments.
-/
import proofs.«140078_j44581760532630_1_alg».proof.Proof.Gen.KernelIdeal.Frame
import proofs.«140078_j44581760532630_1_alg».proof.Proof.Region0
import proofs.«140078_j44581760532630_1_alg».proof.Proof.Region1
import proofs.«140078_j44581760532630_1_alg».proof.Proof.Region2
import proofs.«140078_j44581760532630_1_alg».proof.Proof.RefValue
import proofs.«140078_j44581760532630_1_alg».proof.Proof.Chain0
import proofs.«140078_j44581760532630_1_alg».proof.Proof.Chain1
import proofs.«140078_j44581760532630_1_alg».proof.Proof.Chain2

set_option maxRecDepth 16384

noncomputable section

namespace Cert.KernelIdeal.Chain

open Cert.KernelIdeal Cert.KernelIdeal.Gen Cert.LibMlp
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Every argument, at every boundary it is read from, holds its launch contents -/

theorem w1_arg0 (c : Dev nD) : W1 m ρ c (Proc.devRef .tc main_arg0) = (m ((c : Thread nD τ).loc main_arg0)) := s0_arg0 m ρ c
theorem w1_arg2 (c : Dev nD) : W1 m ρ c (Proc.devRef .tc main_arg2) = (m ((c : Thread nD τ).loc main_arg2)) := s0_arg2 m ρ c
theorem w1_arg3 (c : Dev nD) : W1 m ρ c (Proc.devRef .tc main_arg3) = (m ((c : Thread nD τ).loc main_arg3)) := s0_arg3 m ρ c
theorem w1_arg4 (c : Dev nD) : W1 m ρ c (Proc.devRef .tc main_arg4) = (m ((c : Thread nD τ).loc main_arg4)) := s0_arg4 m ρ c
theorem w1_arg5 (c : Dev nD) : W1 m ρ c (Proc.devRef .tc main_arg5) = (m ((c : Thread nD τ).loc main_arg5)) := s0_arg5 m ρ c
theorem w1_arg6 (c : Dev nD) : W1 m ρ c (Proc.devRef .tc main_arg6) = (m ((c : Thread nD τ).loc main_arg6)) := s0_arg6 m ρ c
theorem w1_arg7 (c : Dev nD) : W1 m ρ c (Proc.devRef .tc main_arg7) = (m ((c : Thread nD τ).loc main_arg7)) := s0_arg7 m ρ c
theorem w1_arg8 (c : Dev nD) : W1 m ρ c (Proc.devRef .tc main_arg8) = (m ((c : Thread nD τ).loc main_arg8)) := s0_arg8 m ρ c
theorem w1_arg9 (c : Dev nD) : W1 m ρ c (Proc.devRef .tc main_arg9) = (m ((c : Thread nD τ).loc main_arg9)) := s0_arg9 m ρ c
theorem w1_arg10 (c : Dev nD) : W1 m ρ c (Proc.devRef .tc main_arg10) = (m ((c : Thread nD τ).loc main_arg10)) := s0_arg10 m ρ c
theorem w1_arg11 (c : Dev nD) : W1 m ρ c (Proc.devRef .tc main_arg11) = (m ((c : Thread nD τ).loc main_arg11)) := s0_arg11 m ρ c
theorem w1_arg12 (c : Dev nD) : W1 m ρ c (Proc.devRef .tc main_arg12) = (m ((c : Thread nD τ).loc main_arg12)) := s0_arg12 m ρ c
theorem w1_arg13 (c : Dev nD) : W1 m ρ c (Proc.devRef .tc main_arg13) = (m ((c : Thread nD τ).loc main_arg13)) := s0_arg13 m ρ c
theorem w1_arg14 (c : Dev nD) : W1 m ρ c (Proc.devRef .tc main_arg14) = (m ((c : Thread nD τ).loc main_arg14)) := s0_arg14 m ρ c
theorem w2_arg0 (c : Dev nD) : W2 m ρ c (Proc.devRef .tc main_arg0) = (m ((c : Thread nD τ).loc main_arg0)) :=
  (W2_of_ne m ρ c main_arg0 (by decide)).trans (w1_arg0 m ρ c)
theorem w2_arg2 (c : Dev nD) : W2 m ρ c (Proc.devRef .tc main_arg2) = (m ((c : Thread nD τ).loc main_arg2)) :=
  (W2_of_ne m ρ c main_arg2 (by decide)).trans (w1_arg2 m ρ c)
theorem w2_arg7 (c : Dev nD) : W2 m ρ c (Proc.devRef .tc main_arg7) = (m ((c : Thread nD τ).loc main_arg7)) :=
  (W2_of_ne m ρ c main_arg7 (by decide)).trans (w1_arg7 m ρ c)
theorem w2_arg8 (c : Dev nD) : W2 m ρ c (Proc.devRef .tc main_arg8) = (m ((c : Thread nD τ).loc main_arg8)) :=
  (W2_of_ne m ρ c main_arg8 (by decide)).trans (w1_arg8 m ρ c)
theorem w2_arg9 (c : Dev nD) : W2 m ρ c (Proc.devRef .tc main_arg9) = (m ((c : Thread nD τ).loc main_arg9)) :=
  (W2_of_ne m ρ c main_arg9 (by decide)).trans (w1_arg9 m ρ c)
theorem w2_arg10 (c : Dev nD) : W2 m ρ c (Proc.devRef .tc main_arg10) = (m ((c : Thread nD τ).loc main_arg10)) :=
  (W2_of_ne m ρ c main_arg10 (by decide)).trans (w1_arg10 m ρ c)
theorem w2_arg11 (c : Dev nD) : W2 m ρ c (Proc.devRef .tc main_arg11) = (m ((c : Thread nD τ).loc main_arg11)) :=
  (W2_of_ne m ρ c main_arg11 (by decide)).trans (w1_arg11 m ρ c)
theorem w2_arg12 (c : Dev nD) : W2 m ρ c (Proc.devRef .tc main_arg12) = (m ((c : Thread nD τ).loc main_arg12)) :=
  (W2_of_ne m ρ c main_arg12 (by decide)).trans (w1_arg12 m ρ c)
theorem w2_arg13 (c : Dev nD) : W2 m ρ c (Proc.devRef .tc main_arg13) = (m ((c : Thread nD τ).loc main_arg13)) :=
  (W2_of_ne m ρ c main_arg13 (by decide)).trans (w1_arg13 m ρ c)
theorem w2_arg14 (c : Dev nD) : W2 m ρ c (Proc.devRef .tc main_arg14) = (m ((c : Thread nD τ).loc main_arg14)) :=
  (W2_of_ne m ρ c main_arg14 (by decide)).trans (w1_arg14 m ρ c)
theorem w3_arg2 (c : Dev nD) : W3 m ρ c (Proc.devRef .tc main_arg2) = (m ((c : Thread nD τ).loc main_arg2)) := (s1_arg2 m ρ c).trans (w2_arg2 m ρ c)
theorem w3_arg7 (c : Dev nD) : W3 m ρ c (Proc.devRef .tc main_arg7) = (m ((c : Thread nD τ).loc main_arg7)) := (s1_arg7 m ρ c).trans (w2_arg7 m ρ c)
theorem w3_arg8 (c : Dev nD) : W3 m ρ c (Proc.devRef .tc main_arg8) = (m ((c : Thread nD τ).loc main_arg8)) := (s1_arg8 m ρ c).trans (w2_arg8 m ρ c)
theorem w3_arg9 (c : Dev nD) : W3 m ρ c (Proc.devRef .tc main_arg9) = (m ((c : Thread nD τ).loc main_arg9)) := (s1_arg9 m ρ c).trans (w2_arg9 m ρ c)
theorem w3_arg10 (c : Dev nD) : W3 m ρ c (Proc.devRef .tc main_arg10) = (m ((c : Thread nD τ).loc main_arg10)) := (s1_arg10 m ρ c).trans (w2_arg10 m ρ c)
theorem w3_arg11 (c : Dev nD) : W3 m ρ c (Proc.devRef .tc main_arg11) = (m ((c : Thread nD τ).loc main_arg11)) := (s1_arg11 m ρ c).trans (w2_arg11 m ρ c)
theorem w3_arg12 (c : Dev nD) : W3 m ρ c (Proc.devRef .tc main_arg12) = (m ((c : Thread nD τ).loc main_arg12)) := (s1_arg12 m ρ c).trans (w2_arg12 m ρ c)
theorem w3_arg13 (c : Dev nD) : W3 m ρ c (Proc.devRef .tc main_arg13) = (m ((c : Thread nD τ).loc main_arg13)) := (s1_arg13 m ρ c).trans (w2_arg13 m ρ c)
theorem w3_arg14 (c : Dev nD) : W3 m ρ c (Proc.devRef .tc main_arg14) = (m ((c : Thread nD τ).loc main_arg14)) := (s1_arg14 m ρ c).trans (w2_arg14 m ρ c)
theorem w4_arg2 (c : Dev nD) : W4 m ρ c (Proc.devRef .tc main_arg2) = (m ((c : Thread nD τ).loc main_arg2)) :=
  (W4_of_ne m ρ c main_arg2 (by decide)).trans (w3_arg2 m ρ c)
theorem w4_arg11 (c : Dev nD) : W4 m ρ c (Proc.devRef .tc main_arg11) = (m ((c : Thread nD τ).loc main_arg11)) :=
  (W4_of_ne m ρ c main_arg11 (by decide)).trans (w3_arg11 m ρ c)
theorem w4_arg12 (c : Dev nD) : W4 m ρ c (Proc.devRef .tc main_arg12) = (m ((c : Thread nD τ).loc main_arg12)) :=
  (W4_of_ne m ρ c main_arg12 (by decide)).trans (w3_arg12 m ρ c)
theorem w4_arg13 (c : Dev nD) : W4 m ρ c (Proc.devRef .tc main_arg13) = (m ((c : Thread nD τ).loc main_arg13)) :=
  (W4_of_ne m ρ c main_arg13 (by decide)).trans (w3_arg13 m ρ c)
theorem w4_arg14 (c : Dev nD) : W4 m ρ c (Proc.devRef .tc main_arg14) = (m ((c : Thread nD τ).loc main_arg14)) :=
  (W4_of_ne m ρ c main_arg14 (by decide)).trans (w3_arg14 m ρ c)
theorem w5_arg11 (c : Dev nD) : W5 m ρ c (Proc.devRef .tc main_arg11) = (m ((c : Thread nD τ).loc main_arg11)) := (s2_arg11 m ρ c).trans (w4_arg11 m ρ c)
theorem w5_arg12 (c : Dev nD) : W5 m ρ c (Proc.devRef .tc main_arg12) = (m ((c : Thread nD τ).loc main_arg12)) := (s2_arg12 m ρ c).trans (w4_arg12 m ρ c)
theorem w5_arg13 (c : Dev nD) : W5 m ρ c (Proc.devRef .tc main_arg13) = (m ((c : Thread nD τ).loc main_arg13)) := (s2_arg13 m ρ c).trans (w4_arg13 m ρ c)
theorem w5_arg14 (c : Dev nD) : W5 m ρ c (Proc.devRef .tc main_arg14) = (m ((c : Thread nD τ).loc main_arg14)) := (s2_arg14 m ρ c).trans (w4_arg14 m ρ c)

/-! ## After region 0: the messages -/

theorem w2_v19 (c : Dev nD) : W2 m ρ c (Proc.devRef .tc main_v19)
    = mlp2 (Cert.ReferenceIdeal.Read.val_main_v18 (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) := by
  refine (W2_arr m ρ c 5).trans ((Region0.final (V1 m ρ) c).trans ?_)
  unfold Region0.result
  show mlp2 (W1 m ρ c (Proc.devRef .tc main_v18)) (W1 m ρ c (Proc.devRef .tc main_arg3)) (W1 m ρ c (Proc.devRef .tc main_arg4)) (W1 m ρ c (Proc.devRef .tc main_arg5)) (W1 m ρ c (Proc.devRef .tc main_arg6)) = _
  rw [s0_v18, w1_arg3, w1_arg4, w1_arg5, w1_arg6]
theorem w2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (s0_v3 m ρ c)

/-! ## After region 1: the updated node features -/

theorem w4_v24 (c : Dev nD) : W4 m ρ c (Proc.devRef .tc main_v24)
    = mlp2 (Cert.ReferenceIdeal.RefValue.mid (m ((c : Thread nD τ).loc main_arg0)) (Cert.ReferenceIdeal.Read.val_main_v3 (F := Ideal) (m ((c : Thread nD τ).loc main_arg1)))
        (mlp2 (Cert.ReferenceIdeal.Read.val_main_v18 (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))))
      (m ((c : Thread nD τ).loc main_arg7)) (m ((c : Thread nD τ).loc main_arg8)) (m ((c : Thread nD τ).loc main_arg9)) (m ((c : Thread nD τ).loc main_arg10)) := by
  refine (W4_arr m ρ c 5).trans ((Region1.final (V3 m ρ) c).trans ?_)
  unfold Region1.result
  show mlp2 (W3 m ρ c (Proc.devRef .tc main_v23)) (W3 m ρ c (Proc.devRef .tc main_arg7)) (W3 m ρ c (Proc.devRef .tc main_arg8)) (W3 m ρ c (Proc.devRef .tc main_arg9)) (W3 m ρ c (Proc.devRef .tc main_arg10)) = _
  rw [s1_v23, w3_arg7, w3_arg8, w3_arg9, w3_arg10, w2_arg0, w2_v3, w2_v19]

/-! ## After region 2: the result -/

/-- The result buffer at the last boundary is the reference's function of the arguments. -/
theorem result_eq (c : Dev nD) : W6 m ρ c (Proc.devRef .tc main_v37)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Cert.ReferenceIdeal.RefValue.ref_eq]
  refine (W6_arr m ρ c 5).trans ((Region2.final (V5 m ρ) c).trans ?_)
  unfold Region2.result
  show mlp2 (W5 m ρ c (Proc.devRef .tc main_v36)) (W5 m ρ c (Proc.devRef .tc main_arg11)) (W5 m ρ c (Proc.devRef .tc main_arg12)) (W5 m ρ c (Proc.devRef .tc main_arg13)) (W5 m ρ c (Proc.devRef .tc main_arg14)) = _
  rw [s2_v36, w5_arg11, w5_arg12, w5_arg13, w5_arg14, w4_arg2, w4_v24]

end Cert.KernelIdeal.Chain

end
-- ==== Proof.lean ====
/-
  The graph network's forward pass — a message perceptron over the gathered edge features, a scatter-add of the messages
  into their target nodes, a node-update perceptron, a per-graph mean, a classifier perceptron — computed by three
  pipelined kernels among host operations, against the same pass written with whole-array matrix products.

  On the extended reals the two programs are one function of the arguments.  Each kernel tiles its operand by rows; a row
  of a two-layer perceptron depends on that row of the operand only, so the blocks the grid points write back are the
  blocks of the perceptron of the whole operand, and together they cover it (Region0, Region1, Region2).  A matrix product
  into a zero accumulator and the host's `dot_general` are the same sum of products; rounding an operand to bfloat16 is
  the identity on the extended reals; the biases reach every row by either program's broadcast (LibMlpRows).  The gather,
  the two scatter-adds, the joins and the division are the same operations in both programs and are never opened
  (RefValue, Chain).  No finiteness of the inputs is used: nothing is reordered or cancelled.

  The three frames are the generated ones (the reference's is its generated run with the result dropped); the
  idealization rewrote nothing, so `preserves` is trivial.
-/
import proofs.«140078_j44581760532630_1_alg».proof.Defs
import proofs.«140078_j44581760532630_1_alg».proof.Proof.Gen.Kernel
import proofs.«140078_j44581760532630_1_alg».proof.Proof.Gen.Kernel.Frame
import proofs.«140078_j44581760532630_1_alg».proof.Proof.Gen.KernelIdeal
import proofs.«140078_j44581760532630_1_alg».proof.Proof.Gen.KernelIdeal.Frame
import proofs.«140078_j44581760532630_1_alg».proof.Proof.Gen.ReferenceIdeal
import proofs.«140078_j44581760532630_1_alg».proof.Proof.Gen.ReferenceIdeal.Run
import proofs.«140078_j44581760532630_1_alg».proof.Proof.Gen.ReferenceIdeal.Read
import proofs.«140078_j44581760532630_1_alg».proof.Proof.Gen.Pre_finite_inputs
import proofs.«140078_j44581760532630_1_alg».proof.Proof.KernelRun
import proofs.«140078_j44581760532630_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the (agreeing) arguments in their result buffers. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result_eq m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v61_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
